-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S512x4096 : Shape := ⟨2, ![512, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S16384x4096 .f32) (main_arg1 : FVec F S512x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Kernel.lean ====
abbrev S16384x4096 : Shape := ⟨2, ![16384, 4096]⟩
abbrev S512x4096 : Shape := ⟨2, ![512, 4096]⟩
abbrev S16384x512 : Shape := ⟨2, ![16384, 512]⟩
abbrev S256x4096 : Shape := ⟨2, ![256, 4096]⟩
abbrev S256x512 : Shape := ⟨2, ![256, 512]⟩
abbrev S4096x512 : Shape := ⟨2, ![4096, 512]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S512x4096, .f32⟩
  | .hbm, ⟨2, _⟩ => ⟨S16384x512, .f32⟩
  | .local _ .vmem, ⟨0, _⟩ => ⟨S256x4096, .f32⟩
  | .local _ .vmem, ⟨1, _⟩ => ⟨S256x4096, .f32⟩
  | .local _ .vmem, ⟨2, _⟩ => ⟨S512x4096, .f32⟩
  | .local _ .vmem, ⟨3, _⟩ => ⟨S256x512, .f32⟩
  | .local _ .vmem, ⟨4, _⟩ => ⟨S256x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  transposes_S512x4096_p1_0_S4096x512 : S512x4096.Transposes [1, 0] S4096x512
  reduces_S256x512_S256 : S256x512.Reduces [1] S256
  shapeCasts_S256_S256x1 : S256.ShapeCasts S256x1
  broadcasts_S256x1_S256x512 : S256x1.Broadcasts S256x512
  inb_S256x512_S256x512_0_0 : ∀ a, (![0, 0] : Fin 2 → Nat) a + S256x512.size a ≤ S256x512.size a
  h_S256x512 : 0 < S256x512.numel
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .f32 = 32 ∨ (Rect.block (s := S512x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S512x4096 : Shape := ⟨2, ![512, 4096]⟩
abbrev S16384x512 : Shape := ⟨2, ![16384, 512]⟩
abbrev S_ : Shape := ⟨0, ![]⟩
abbrev S16384 : Shape := ⟨1, ![16384]⟩
abbrev S16384x1 : Shape := ⟨2, ![16384, 1]⟩

abbrev nBuf : Space → Nat
  | .hbm => 130
  | .vmem => 0
  | .smem => 0
  | _ => 0

abbrev hbmTy0_0 (i : Nat) : BufTy := match i % 128 with
  | 0 => ⟨S16384x4096, .f32⟩
  | 1 => ⟨S512x4096, .f32⟩
  | 2 => ⟨S16384x512, .f32⟩
  | 3 => ⟨S_, .f32⟩
  | 4 => ⟨S16384x512, .f32⟩
  | 5 => ⟨S_, .f32⟩
  | 6 => ⟨S16384, .f32⟩
  | 7 => ⟨S_, .f32⟩
  | 8 => ⟨S16384, .f32⟩
  | 9 => ⟨S16384, .f32⟩
  | 10 => ⟨S16384x1, .f32⟩
  | 11 => ⟨S16384x512, .f32⟩
  | 12 => ⟨S16384x512, .f32⟩
  | 13 => ⟨S16384x512, .f32⟩
  | 14 => ⟨S_, .f32⟩
  | 15 => ⟨S16384, .f32⟩
  | 16 => ⟨S16384x1, .f32⟩
  | 17 => ⟨S16384x512, .f32⟩
  | 18 => ⟨S16384x512, .f32⟩
  | 19 => ⟨S16384x512, .f32⟩
  | 20 => ⟨S16384x512, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S16384x1, .f32⟩
  | 28 => ⟨S16384x512, .f32⟩
  | 29 => ⟨S16384x512, .f32⟩
  | 30 => ⟨S16384x1, .f32⟩
  | 31 => ⟨S_, .f32⟩
  | 32 => ⟨S16384x1, .f32⟩
  | 33 => ⟨S16384x1, .f32⟩
  | 34 => ⟨S16384x512, .f32⟩
  | 35 => ⟨S16384x512, .f32⟩
  | 36 => ⟨S16384x512, .f32⟩
  | 37 => ⟨S_, .f32⟩
  | 38 => ⟨S16384, .f32⟩
  | 39 => ⟨S16384x1, .f32⟩
  | 40 => ⟨S16384x512, .f32⟩
  | 41 => ⟨S16384x512, .f32⟩
  | 42 => ⟨S_, .f32⟩
  | 43 => ⟨S16384, .f32⟩
  | 44 => ⟨S_, .f32⟩
  | 45 => ⟨S16384, .f32⟩
  | 46 => ⟨S16384, .f32⟩
  | 47 => ⟨S16384x1, .f32⟩
  | 48 => ⟨S16384x512, .f32⟩
  | 49 => ⟨S16384x512, .f32⟩
  | 50 => ⟨S16384x512, .f32⟩
  | 51 => ⟨S_, .f32⟩
  | 52 => ⟨S16384, .f32⟩
  | 53 => ⟨S16384x1, .f32⟩
  | 54 => ⟨S16384x512, .f32⟩
  | 55 => ⟨S16384x512, .f32⟩
  | 56 => ⟨S16384x512, .f32⟩
  | 57 => ⟨S16384x512, .f32⟩
  | 58 => ⟨S_, .f32⟩
  | 59 => ⟨S16384, .f32⟩
  | 60 => ⟨S16384x1, .f32⟩
  | 61 => ⟨S_, .f32⟩
  | 62 => ⟨S16384x1, .f32⟩
  | 63 => ⟨S16384x1, .f32⟩
  | 64 => ⟨S16384x1, .f32⟩
  | 65 => ⟨S16384x512, .f32⟩
  | 66 => ⟨S16384x512, .f32⟩
  | 67 => ⟨S16384x1, .f32⟩
  | 68 => ⟨S_, .f32⟩
  | 69 => ⟨S16384x1, .f32⟩
  | 70 => ⟨S16384x1, .f32⟩
  | 71 => ⟨S16384x512, .f32⟩
  | 72 => ⟨S16384x512, .f32⟩
  | 73 => ⟨S16384x512, .f32⟩
  | 74 => ⟨S_, .f32⟩
  | 75 => ⟨S16384, .f32⟩
  | 76 => ⟨S16384x1, .f32⟩
  | 77 => ⟨S16384x512, .f32⟩
  | 78 => ⟨S16384x512, .f32⟩
  | 79 => ⟨S_, .f32⟩
  | 80 => ⟨S16384, .f32⟩
  | 81 => ⟨S_, .f32⟩
  | 82 => ⟨S16384, .f32⟩
  | 83 => ⟨S16384, .f32⟩
  | 84 => ⟨S16384x1, .f32⟩
  | 85 => ⟨S16384x512, .f32⟩
  | 86 => ⟨S16384x512, .f32⟩
  | 87 => ⟨S16384x512, .f32⟩
  | 88 => ⟨S_, .f32⟩
  | 89 => ⟨S16384, .f32⟩
  | 90 => ⟨S16384x1, .f32⟩
  | 91 => ⟨S16384x512, .f32⟩
  | 92 => ⟨S16384x512, .f32⟩
  | 93 => ⟨S16384x512, .f32⟩
  | 94 => ⟨S16384x512, .f32⟩
  | 95 => ⟨S_, .f32⟩
  | 96 => ⟨S16384, .f32⟩
  | 97 => ⟨S16384x1, .f32⟩
  | 98 => ⟨S_, .f32⟩
  | 99 => ⟨S16384x1, .f32⟩
  | 100 => ⟨S16384x1, .f32⟩
  | 101 => ⟨S16384x1, .f32⟩
  | 102 => ⟨S16384x512, .f32⟩
  | 103 => ⟨S16384x512, .f32⟩
  | 104 => ⟨S16384x1, .f32⟩
  | 105 => ⟨S_, .f32⟩
  | 106 => ⟨S16384x1, .f32⟩
  | 107 => ⟨S16384x1, .f32⟩
  | 108 => ⟨S16384x512, .f32⟩
  | 109 => ⟨S16384x512, .f32⟩
  | 110 => ⟨S16384x512, .f32⟩
  | 111 => ⟨S_, .f32⟩
  | 112 => ⟨S16384, .f32⟩
  | 113 => ⟨S16384x1, .f32⟩
  | 114 => ⟨S16384x512, .f32⟩
  | 115 => ⟨S16384x512, .f32⟩
  | 116 => ⟨S_, .f32⟩
  | 117 => ⟨S16384, .f32⟩
  | 118 => ⟨S_, .f32⟩
  | 119 => ⟨S16384, .f32⟩
  | 120 => ⟨S16384, .f32⟩
  | 121 => ⟨S16384x1, .f32⟩
  | 122 => ⟨S16384x512, .f32⟩
  | 123 => ⟨S16384x512, .f32⟩
  | 124 => ⟨S16384x512, .f32⟩
  | 125 => ⟨S_, .f32⟩
  | 126 => ⟨S16384, .f32⟩
  | 127 => ⟨S16384x1, .f32⟩
  | _ => ⟨S16384x4096, .f32⟩

abbrev hbmTy0_1 (i : Nat) : BufTy := match i % 128 with
  | 0 => ⟨S16384x512, .f32⟩
  | 1 => ⟨S16384x512, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_13 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_14 : Ref sig .tc := ⟨.hbm, 79, rfl⟩
abbrev main_v62 : Ref sig .tc := ⟨.hbm, 80, rfl⟩
abbrev main_cst_15 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_16 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_17 : Ref sig .tc := ⟨.hbm, 95, rfl⟩
abbrev main_v75 : Ref sig .tc := ⟨.hbm, 96, rfl⟩
abbrev main_v76 : Ref sig .tc := ⟨.hbm, 97, rfl⟩
abbrev main_cst_18 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_19 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_20 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_21 : Ref sig .tc := ⟨.hbm, 116, rfl⟩
abbrev main_v92 : Ref sig .tc := ⟨.hbm, 117, rfl⟩
abbrev main_cst_22 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_23 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩

abbrev nD : Nat := 1
abbrev τ : Topo := Topo.v7x

variable {F : FTy → Type} [FloatOps F]

class Facts₀ : Prop where
  bcast_S_S16384x512 : S_.BroadcastsInDim S16384x512 (![] : Fin 0 → Fin S16384x512.rank)
  reducesTo_S16384x512_S16384_d1 : S16384x512.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S16384x1 : S_.BroadcastsInDim S16384x1 (![] : Fin 0 → Fin S16384x1.rank)
  dot_S16384x4096_S512x4096_S16384x512_1_1_0_0_n_n_wf : DotDims.WF S16384x4096 S512x4096 S16384x512 [1] [1] [0] [0] [] []

variable [Facts₀]

def dot_S16384x4096_S512x4096_S16384x512_1_1_0_0_n_n : DotDims S16384x4096 S512x4096 S16384x512 where
  lhsContracting := [1]
  rhsContracting := [1]
  lhsNonContracting := [0]
  rhsNonContracting := [0]
  lhsBatch := []
  rhsBatch := []
  wf := dot_S16384x4096_S512x4096_S16384x512_1_1_0_0_n_n_wf

class Facts : Prop extends Facts₀ where

variable [Facts]
-- ==== Proof.Spec.lean ====
/-
  Capsule-style routing of one row of logits, on the extended reals.

  For a row `u` of 512 logits the routing keeps a row `b` of 512 coupling scores, zero at first, and repeats
  three times: `c = softmax b` (each `exp (b k - max b)` over their sum), `s = u · c` entrywise,
  `n = Σ s²`, the squashed row `v = (n / (1 + n)) · s / (√n + ε)`, and `b ← b + Σ u · v` (the same increment
  on every entry). The result is `softmax b`. Every operation is the exact one on the extended reals, and the
  literals are kept as the words the programs carry. The logits of row `r` of `x` against `W` are
  `u k = Σ_d x (r, d) · W (k, d)`.
-/
import Idealize.ShloMosaic.PureOps.Ideal
import Idealize.ShloMosaic.Lib.ValueIdx

noncomputable section

namespace Cert.Routing

open Idealize.ShloMosaic Idealize.ShloMosaic.ValueIdx

/-- A row of 512 extended reals. -/
abbrev Row := Fin 512 → EReal

/-- The largest entry of a row, taken from −∞ (the word `0xFF800000`). -/
def rowMax (b : Row) : EReal :=
  max (Ideal.ofBits .f32 0xFF800000#32) (Finset.univ.fold max (Ideal.ofBits .f32 0xFF800000#32) b)

/-- Each entry's exponential after the row's largest entry is subtracted. -/
def expRow (b : Row) : Row := fun k => Ideal.exp (b k - rowMax b)

/-- Each entry over the row's sum. -/
def normRow (e : Row) : Row := fun k => Ideal.div (e k) (∑ j, e j)

/-- The entrywise product of two rows. -/
def scaleRow (u c : Row) : Row := fun k => u k * c k

/-- The sum of a row's squares. -/
def sqNorm (s : Row) : EReal := ∑ k, s k * s k

/-- The squashed row: `(n / (1 + n)) · s / (√n + ε)` with `n` the sum of squares. -/
def squash (s : Row) : Row := fun k =>
  Ideal.div (Ideal.div (sqNorm s) (Ideal.ofBits .f32 0x3F800000#32 + sqNorm s) * s k)
    (Ideal.sqrt (sqNorm s) + Ideal.ofBits .f32 0x3089705F#32)

/-- The scores after one agreement step from the weighted row `s`: every entry grows by `Σ u · squash s`. -/
def update (u b s : Row) : Row := fun k => b k + ∑ j, u j * squash s j

/-- One routing iteration, from the exponentials `e` of the current scores. -/
def stepFrom (u b e : Row) : Row := update u b (scaleRow u (normRow e))

/-- One routing iteration. -/
def step (u b : Row) : Row := stepFrom u b (expRow b)

/-- The all-zero scores the routing starts from. -/
def zeroRow : Row := fun _ => Ideal.ofBits .f32 0x00000000#32

/-- Three routing iterations and the final softmax. -/
def route (u : Row) : Row := normRow (expRow (step u (step u (step u zeroRow))))

/-- Row `r` of `x` against every row of `W`. -/
def logits {n : Nat} (x : (⟨2, ![n, 4096]⟩ : Shape).Idx → EReal) (W : (⟨2, ![512, 4096]⟩ : Shape).Idx → EReal) (r : Fin n) : Row :=
  fun k => ∑ d : Fin 4096, x (ix2 r d) * W (ix2 k d)

/-- The routed output as one function of the two arrays: row `r` is the routing of row `r`'s logits. -/
def routed {n : Nat} (x : (⟨2, ![n, 4096]⟩ : Shape).Idx → EReal) (W : (⟨2, ![512, 4096]⟩ : Shape).Idx → EReal) :
    (⟨2, ![n, 512]⟩ : Shape).Idx → EReal :=
  fun i => route (logits x W (i 0)) (i 1)

theorem routed_ix2 {n : Nat} (x : (⟨2, ![n, 4096]⟩ : Shape).Idx → EReal) (W : (⟨2, ![512, 4096]⟩ : Shape).Idx → EReal)
    (r : Fin n) (k : Fin 512) : routed x W (ix2 r k) = route (logits x W r) k := rfl

end Cert.Routing

end
-- ==== Proof.LibCastBroadcast.lean ====
/-
  A vector laid along one axis of a matrix and repeated along the other, read at an entry.

  A length-`a` vector cast to a column `[a, 1]` and broadcast to `[a, b]` holds, at `(p, c)`, the vector's entry `p`
  (every column is the vector); a length-`b` vector cast to a row `[1, b]` and broadcast to `[a, b]` holds, at `(p, c)`,
  the vector's entry `c` (every row is the vector).
-/
import Idealize.ShloMosaic.Lib.Pipeline.Value
import Idealize.ShloMosaic.Lib.ValueIdx
import Idealize.ShloMosaic.Lib.ValueLayout

noncomputable section

namespace Cert.Lib.CastBroadcast

open Idealize.ShloMosaic Idealize.ShloMosaic.ValueIdx

variable {α : Type}

/-- An `[a]` vector cast to a column `[a, 1]` reads, at `(p, u)`, the vector at `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector as the columns of a matrix: cast to `[a, 1]`, broadcast to `[a, b]`, read at `(p, c)`, it is the vector at `p`. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (broadcastTo_a1_ab_apply _ h2 p c).trans (shapeCast_a_a1_apply v h1 p 0)

/-- A vector as the rows of a matrix: cast to `[1, b]`, broadcast to `[a, b]`, read at `(p, c)`, it is the vector at `c`. -/
theorem row_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

end Cert.Lib.CastBroadcast

end
-- ==== Proof.LibRowReduce.lean ====
/-
  A matrix reduced along its rows, read at a row.

  Over an `[a, b]` matrix a lane reduction along axis 1 leaves one value per row: the sum of the row's `b`
  entries for `add`, and for `maximumf` the fold of `max` over them from the accumulator's value. The host's
  one-operand reduce with a maximum body reads the same way from its initial value.
-/
import Idealize.ShloMosaic.PureOps.Ideal.Laws
import Idealize.ShloMosaic.Lib.ValueIdx
import Idealize.ShloMosaic.Lib.IdealHost

noncomputable section

namespace Cert.Lib.RowReduce

open Idealize.ShloMosaic Idealize.ShloMosaic.ValueIdx

/-- Row `p` with the column `k` put back is the entry `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A lane sum along axis 1 of an `[a, b]` matrix, at row `p`, is the sum of that row's entries. -/
theorem rowSum_apply {a b : ℕ} (X : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ X 0x00000000#32 h hφ hacc (ix1 p) = ∑ k : Fin b, X (ix2 p k) :=
  (Ideal.multiReduction_add_single X 0x00000000#32 h hφ hacc (ix1 p)).trans
    (Finset.sum_congr rfl fun k _ => congrArg X (lift_row h p k))

/-- A lane maximum along axis 1 of an `[a, b]` matrix, at row `p`, is the fold of `max` over that row's entries from
    the accumulator's value. -/
theorem rowMax_apply {a b : ℕ} (X : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0xFF800000#32 : BitVec 32) = 0xFF800000#32) (p : Fin a) :
    multiReduction .maximumf [1] ⟨1, ![a]⟩ X 0xFF800000#32 h hφ hacc (ix1 p)
      = (Finset.univ : Finset (Fin b)).fold max (Ideal.ofBits .f32 0xFF800000#32) (fun k => X (ix2 p k)) :=
  (Ideal.multiReduction_maximumf_single X 0xFF800000#32 h hφ hacc (ix1 p)).trans
    (congrArg (fun f => Finset.fold max (Ideal.ofBits .f32 0xFF800000#32) f (Finset.univ : Finset (Fin b)))
      (funext fun k => congrArg X (lift_row h p k)))

/-- A host reduction's shape fact along axis 1 of a matrix is also the lane reduction's (the reduced shape has an axis). -/
theorem reduces_of_reducesTo {a b : ℕ} (h' : (⟨2, ![a, b]⟩ : Shape).ReducesTo [1] (⟨1, ![a]⟩ : Shape)) :
    (⟨2, ![a, b]⟩ : Shape).Reduces [1] (⟨1, ![a]⟩ : Shape) := ⟨h'.1, Nat.one_pos, h'.2⟩

/-- The host's reduce with a maximum body along axis 1 of an `[a, b]` matrix, at row `p`, is the fold of `max` over that
    row's entries from the initial value. -/
theorem hostRowMax_apply {a b : ℕ} (X : FVec Ideal ⟨2, ![a, b]⟩ .f32) (init : FVec Ideal ⟨0, ![]⟩ .f32)
    (h' : (⟨2, ![a, b]⟩ : Shape).ReducesTo [1] (⟨1, ![a]⟩ : Shape)) (hu : 0 < (⟨0, ![]⟩ : Shape).numel) (p : Fin a) :
    Host.reduce FloatOps.maximumf X init h' hu (ix1 p)
      = (Finset.univ : Finset (Fin b)).fold max (init ix0) (fun k => X (ix2 p k)) := by
  have h := reduces_of_reducesTo h'
  rw [Host.reduce_eq_fold_single FloatOps.maximumf X init h' h hu]
  have hi : init (Shape.Idx.first hu) = init ix0 := congrArg init (eq_ix0 _)
  rw [hi]
  exact congrArg (fun f => Finset.fold max (init ix0) f (Finset.univ : Finset (Fin b)))
    (funext fun k => congrArg X (lift_row h p k))

/-- The host's float sum along axis 1 of an `[a, b]` matrix, at row `p`, is the initial value plus the sum of that row's
    entries. -/
theorem hostRowSum_apply {a b : ℕ} (X : FVec Ideal ⟨2, ![a, b]⟩ .f32) (init : FVec Ideal ⟨0, ![]⟩ .f32)
    (h' : (⟨2, ![a, b]⟩ : Shape).ReducesTo [1] (⟨1, ![a]⟩ : Shape)) (hu : 0 < (⟨0, ![]⟩ : Shape).numel) (p : Fin a) :
    Host.reduceAdd X init h' hu (ix1 p) = init ix0 + ∑ k : Fin b, X (ix2 p k) := by
  have h := reduces_of_reducesTo h'
  have hi : init (Shape.Idx.first hu) = init ix0 := congrArg init (eq_ix0 _)
  rw [hostReduceAdd_apply, Ideal.hostReduceAdd_single h' h, hi]
  exact congrArg (init ix0 + ·) (Finset.sum_congr rfl fun k _ => congrArg X (lift_row h p k))

end Cert.Lib.RowReduce

end
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.KernelRows.lean ====
/-
  What the kernel's body stores, row by row.

  The body loads a block of 256 rows of `x` and all of `W`, forms the 256 × 512 logits, and runs the routing on the
  whole block at once. Every step after the product is either entrywise or a reduction along a row (a sum or a maximum
  over the 512 columns, cast to a column and broadcast back), so row `p` of each intermediate block depends only on row
  `p` of the blocks before it: read at `(p, q)`, each piece of the body is the matching routing step applied to row `p`.
-/
import proofs.«163867_j78477642432579_1_alg».proof.Proof.Gen.KernelIdeal.Skeleton
import proofs.«163867_j78477642432579_1_alg».proof.Proof.Spec
import proofs.«163867_j78477642432579_1_alg».proof.Proof.LibCastBroadcast
import proofs.«163867_j78477642432579_1_alg».proof.Proof.LibRowReduce
import proofs.«163867_j78477642432579_1_alg».proof.Proof.LibMatmulPlain
import Idealize.ShloMosaic.Lib.ValueLayout
import Idealize.ShloMosaic.PureOps.Ideal.Laws

noncomputable section

namespace Cert.KernelIdeal.Rows

open Idealize.ShloMosaic Idealize.ShloMosaic.ValueIdx
open Cert.KernelIdeal Cert.KernelIdeal.Gen Cert.Routing Cert.Lib.CastBroadcast Cert.Lib.RowReduce

variable [Facts]

theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl

/-- The logits block: entry `(p, q)` is row `p` of the `x` block against row `q` of `W` (the body transposes `W` first, and
    the narrowing to bf16 is the identity on the extended reals). -/
theorem pay2_apply (x0 : Vec Ideal S256x4096 .f32) (w : Vec Ideal S512x4096 .f32) (p : Fin 256) (q : Fin 512) :
    k0_pay2 (F := Ideal) x0 w (ix2 p q) = ∑ d : Fin 4096, x0 (ix2 p d) * w (ix2 q d) := by
  unfold k0_pay2
  refine (Cert.Lib.MatmulPlain.matmul_plain_zero_apply (A := 256) (K := 4096) (B := 512) none _ _ p q).trans ?_
  refine Finset.sum_congr rfl fun d _ => ?_
  rw [transpose_ix2_apply]
  rfl

/-- The scores after the first iteration, from the all-zero scores. -/
theorem pay3_apply (x0 : Vec Ideal S256x4096 .f32) (w : Vec Ideal S512x4096 .f32) (p : Fin 256) (q : Fin 512) :
    k0_pay3 (F := Ideal) x0 w (ix2 p q) = step (fun k => k0_pay2 (F := Ideal) x0 w (ix2 p k)) zeroRow q := by
  unfold k0_pay3
  repeat (first
    | rw [rowSum_apply]
    | rw [rowMax_apply]
    | simp only [divf_apply, mulf_apply, exp_apply, sqrt_apply, subf_apply, addf_apply, maximumf_apply, broadcast_apply,
        broadcastTo_a1_ab_apply, shapeCast_a_a1_apply])
  rfl

/-- The exponentials the second iteration's softmax starts from. -/
theorem pay4_apply (x0 : Vec Ideal S256x4096 .f32) (w : Vec Ideal S512x4096 .f32) (p : Fin 256) (q : Fin 512) :
    k0_pay4 (F := Ideal) x0 w (ix2 p q) = expRow (fun k => k0_pay3 (F := Ideal) x0 w (ix2 p k)) q := by
  unfold k0_pay4
  repeat (first
    | rw [rowSum_apply]
    | rw [rowMax_apply]
    | simp only [divf_apply, mulf_apply, exp_apply, sqrt_apply, subf_apply, addf_apply, maximumf_apply, broadcast_apply,
        broadcastTo_a1_ab_apply, shapeCast_a_a1_apply])
  rfl

/-- The scores after the second iteration, from the logits, the scores and their exponentials. -/
theorem pay5_apply (Ub B E : FVec Ideal S256x512 .f32) (p : Fin 256) (q : Fin 512) :
    k0_pay5 (F := Ideal) Ub B E (ix2 p q)
      = stepFrom (fun k => Ub (ix2 p k)) (fun k => B (ix2 p k)) (fun k => E (ix2 p k)) q := by
  unfold k0_pay5
  repeat (first
    | rw [rowSum_apply]
    | rw [rowMax_apply]
    | simp only [divf_apply, mulf_apply, exp_apply, sqrt_apply, subf_apply, addf_apply, maximumf_apply, broadcast_apply,
        broadcastTo_a1_ab_apply, shapeCast_a_a1_apply])
  rfl

/-- The third iteration's agreement terms `u · v`, before they are summed along the row. -/
theorem pay6_apply (Ub B E : FVec Ideal S256x512 .f32) (p : Fin 256) (q : Fin 512) :
    k0_pay6 (F := Ideal) Ub B E (ix2 p q)
      = Ub (ix2 p q) * squash (scaleRow (fun k => Ub (ix2 p k))
          (normRow (expRow fun k => k0_pay5 (F := Ideal) Ub B E (ix2 p k)))) q := by
  unfold k0_pay6
  repeat (first
    | rw [rowSum_apply]
    | rw [rowMax_apply]
    | simp only [divf_apply, mulf_apply, exp_apply, sqrt_apply, subf_apply, addf_apply, maximumf_apply, broadcast_apply,
        broadcastTo_a1_ab_apply, shapeCast_a_a1_apply])
  rfl

/-- The stored block: the third iteration's sum added to the scores, then the final softmax. -/
theorem pay1_apply (B UV : FVec Ideal S256x512 .f32) (p : Fin 256) (q : Fin 512) :
    k0_pay1 (F := Ideal) B UV (ix2 p q) = normRow (expRow (fun k => B (ix2 p k) + ∑ j, UV (ix2 p j))) q := by
  unfold k0_pay1
  repeat (first
    | rw [rowSum_apply]
    | rw [rowMax_apply]
    | simp only [divf_apply, mulf_apply, exp_apply, sqrt_apply, subf_apply, addf_apply, maximumf_apply, broadcast_apply,
        broadcastTo_a1_ab_apply, shapeCast_a_a1_apply])
  rfl

/-- The value the body stores at `(p, q)` is the routing of row `p`'s logits, at `q`. -/
theorem stored_apply (x0 : Vec Ideal S256x4096 .f32) (w : Vec Ideal S512x4096 .f32) (p : Fin 256) (q : Fin 512) :
    k0_pay1 (F := Ideal) (k0_pay5 (k0_pay2 x0 w) (k0_pay3 x0 w) (k0_pay4 x0 w))
        (k0_pay6 (k0_pay2 x0 w) (k0_pay3 x0 w) (k0_pay4 x0 w)) (ix2 p q)
      = route (fun k => ∑ d : Fin 4096, x0 (ix2 p d) * w (ix2 k d)) q := by
  simp only [pay1_apply, pay5_apply, pay6_apply, pay4_apply, pay3_apply, pay2_apply]
  rfl

/-- The same routing from any array `X` whose row `r` is the block's row `p`, against any `W` the block's second operand agrees
    with: the stored value at `(p, q)` is `routed X W` at `(r, q)`. -/
theorem stored_of_block (x0 : Vec Ideal S256x4096 .f32) (w0 : Vec Ideal S512x4096 .f32)
    (X : (⟨2, ![16384, 4096]⟩ : Shape).Idx → EReal) (W : (⟨2, ![512, 4096]⟩ : Shape).Idx → EReal)
    (p : Fin 256) (r : Fin 16384) (q : Fin 512)
    (hx : ∀ d : Fin 4096, x0 (ix2 p d) = X (ix2 r d)) (hw : ∀ (k : Fin 512) (d : Fin 4096), w0 (ix2 k d) = W (ix2 k d)) :
    k0_pay1 (F := Ideal) (k0_pay5 (k0_pay2 x0 w0) (k0_pay3 x0 w0) (k0_pay4 x0 w0))
        (k0_pay6 (k0_pay2 x0 w0) (k0_pay3 x0 w0) (k0_pay4 x0 w0)) (ix2 p q)
      = routed X W (ix2 r q) :=
  (stored_apply x0 w0 p q).trans
    (congrArg (fun u => route u q) (funext fun k => Finset.sum_congr rfl fun d _ => by rw [hx d, hw k d]))

end Cert.KernelIdeal.Rows

end
-- ==== Proof.KernelValue.lean ====
/-
  From the body's blocks to the whole result array.

  The grid has 64 points. Point `t` stages rows `256 t … 256 t + 255` of `x`, all of `W`, and writes back rows
  `256 t … 256 t + 255` of the result. The body's value at `(p, q)` of its block is the routing of the block's row `p`
  against `W`, and that row is row `256 t + p` of `x`; so what point `t` writes back is block `t` of one function of the
  two argument arrays, `routed x W`. The 64 blocks tile the 16384 rows (row `i` lies in block `i / 256`), so after the
  run the result array is `routed x W`.
-/
import proofs.«163867_j78477642432579_1_alg».proof.Proof.Gen.KernelIdeal.Frame
import proofs.«163867_j78477642432579_1_alg».proof.Proof.KernelRows
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Routing
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The printed index maps, decided over the grid: at point `t` the `x` window and the result window are at block row `t`,
    block column 0; the `W` window is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The result array as one function of the argument arrays as the region finds them. -/
abbrev result (c : Dev nD) : S16384x512.Idx → EReal :=
  routed (n := 16384) (V m c main_arg0 : S16384x4096.Idx → EReal) (V m c main_arg1 : S512x4096.Idx → EReal)

/-- Row `p` of the `x` block at point `t` is row `256 t + p` of `x`. -/
theorem xblock_apply (c : Dev nD) (t : Fin cfg0.N) (p : Fin 256) (d : Fin 4096) (r : Fin 16384) (hr : r.val = t.val * 256 + p.val) :
    (iblk m c 0 t : Vec Ideal S256x4096 .f32) (ix2 p d) = (V m c main_arg0 : S16384x4096.Idx → EReal) (ix2 r d) := by
  obtain ⟨e0, e1, -, -, -, -⟩ := idx_facts t
  show (V m c main_arg0 : S16384x4096.Idx → EReal) (((cfg0.win 0).blk t).view.emb (ix2 p d)) = _
  refine congrArg _ (funext fun a => Fin.ext ?_)
  match a with
  | ⟨0, _⟩ => show win0_0.index t (0 : Fin 2) * 256 + 1 * p.val = r.val; omega
  | ⟨1, _⟩ => show win0_0.index t (1 : Fin 2) * 4096 + 1 * d.val = d.val; omega

/-- The `W` block at every point is `W`. -/
theorem wblock_apply (c : Dev nD) (t : Fin cfg0.N) (k : Fin 512) (d : Fin 4096) :
    (iblk m c 1 t : Vec Ideal S512x4096 .f32) (ix2 k d) = (V m c main_arg1 : S512x4096.Idx → EReal) (ix2 k d) := by
  obtain ⟨-, -, e2, e3, -, -⟩ := idx_facts t
  show (V m c main_arg1 : S512x4096.Idx → EReal) (((cfg0.win 1).blk t).view.emb (ix2 k d)) = _
  refine congrArg _ (funext fun a => Fin.ext ?_)
  match a with
  | ⟨0, _⟩ => show win0_1.index t (0 : Fin 2) * 512 + 1 * k.val = k.val; omega
  | ⟨1, _⟩ => show win0_1.index t (1 : Fin 2) * 4096 + 1 * d.val = d.val; omega

/-- What point `t` writes back is block `t` of `routed x W`. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold out0_2
  rw [View.canon_unit_zero origin_zero]
  simp only [View.ld_unit_zero (S := S256x4096) origin_zero, View.ld_unit_zero (S := S512x4096) origin_zero]
  have hN : cfg0.N = 64 := N_0
  obtain ⟨-, -, -, -, e4, e5⟩ := idx_facts t
  funext j
  obtain ⟨p, q, rfl⟩ : ∃ (p : Fin 256) (q : Fin 512), j = ix2 p q := ⟨j 0, j 1, eq_ix2 j⟩
  have ht : t.val < 64 := hN ▸ t.isLt
  let r : Fin 16384 := ⟨t.val * 256 + p.val, by have := p.isLt; omega⟩
  refine (Cert.KernelIdeal.Rows.stored_of_block (iblk m c 0 t) (iblk m c 1 t) (V m c main_arg0) (V m c main_arg1) p r q
    (fun d => xblock_apply m c t p d r rfl) (fun k d => wblock_apply m c t k d)).trans ?_
  have hi : ((cfg0.win 2).blk t).view.emb (ix2 p q) = (ix2 r q : S16384x512.Idx) :=
    funext fun a => Fin.ext (by
      match a with
      | ⟨0, _⟩ => show win0_2.index t (0 : Fin 2) * 256 + 1 * p.val = t.val * 256 + p.val; omega
      | ⟨1, _⟩ => show win0_2.index t (1 : Fin 2) * 512 + 1 * q.val = q.val; omega)
  show _ = result m c (((cfg0.win 2).blk t).view.emb (ix2 p q))
  rw [hi]

/-- An index of the result array is in point `t`'s block iff each coordinate is in the block's range on its axis. -/
theorem mem_blk (t : Fin cfg0.N) (i : S16384x512.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v0).slice (win0_2.rect t)).set ↔ _
  rw [View.set_slice_whole, Rect.mem_set_unit]
  exact Iff.rfl

/-- Every index of the result array lies in some point's block: row `i` is in block `i / 256`. -/
theorem cover (i : S16384x512.Idx) :
    ∃ t : Fin cfg0.N, (cfg0.win 2).flush t = true ∧ i ∈ ((cfg0.win 2).blk t).view.set := by
  have hN : cfg0.N = 64 := N_0
  have hi0 : (i 0).val < 16384 := (i 0).isLt
  have hi1 : (i 1).val < 512 := (i 1).isLt
  let t : Fin cfg0.N := ⟨(i 0).val / 256, by rw [hN]; omega⟩
  obtain ⟨-, -, -, -, e4, e5⟩ := idx_facts t
  have ht : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 512 ≤ (i 1).val ∧ (i 1).val < win0_2.index t (1 : Fin 2) * 512 + 512; omega

/-- The result array after the run is `routed x W`. -/
theorem final (c : Dev nD) : (dats m 0 c).arrAt 2 cfg0.N = result m c :=
  (dats m 0 c).arrAt_eq_of_cover 2 (result m c) (fun t _ => flushed_eq m c t) cover

/-- After the frame run, the result window's array is `(dats m 0 c).arrAt 2 N`. -/
theorem post_result (r : PUnit × MemSt nD τ sig (Elt Ideal)) (h : Pipeline.FramePost cfgs (dats m) 0 (V m) r) (c : Dev nD) :
    r.2.mem ((c : Thread nD τ).loc main_v0) = (dats m 0 c).arrAt 2 cfg0.N :=
  (h c).1 2

/-- After the frame run `x` is as launched: its window stages it and never writes it back. -/
theorem kept_x (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run `W` is as launched: its window stages it and never writes it back. -/
theorem kept_w (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The kernel's run, read: the result array ends at `routed x W` of the arguments as launched, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post_result m r h c).trans (final m c),
      kept_x m r h c,
      kept_w m r h c⟩)
    (run_main m ρ)

end Cert.KernelIdeal.Blocks

end
-- ==== Proof.LibHostColumn.lean ====
/-
  A column repeated along the rows of a matrix by the host, read at an entry.

  The host spells `keepdims` as two `broadcast_in_dim`s: a length-`a` vector placed on axis 0 of an `[a, 1]` column, and
  an `[a, 1]` column placed on both axes of an `[a, b]` matrix. The first reads, at `(p, u)`, the vector's entry `p`; the
  second reads, at `(p, c)`, the column's entry `p`.
-/
import Idealize.ShloMosaic.Lib.Pipeline.Value
import Idealize.ShloMosaic.Lib.ValueIdx

noncomputable section

namespace Cert.Lib.HostColumn

open Idealize.ShloMosaic Idealize.ShloMosaic.ValueIdx

variable {α : Type}

/-- An `[a]` vector broadcast along axis 0 of an `[a, 1]` column reads, at `(p, u)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- An `[a, 1]` column broadcast along both axes of an `[a, b]` matrix reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The same with the axis map a variable equal to `![0]`. -/
theorem broadcastInDim_a_a1_apply' {a : ℕ} (dims : Fin (⟨1, ![a]⟩ : Shape).rank → Fin (⟨2, ![a, 1]⟩ : Shape).rank)
    (v : (⟨1, ![a]⟩ : Shape).Idx → α) (h : (⟨1, ![a]⟩ : Shape).BroadcastsInDim ⟨2, ![a, 1]⟩ dims) (hd : dims = ![0])
    (p : Fin a) (u : Fin 1) : broadcastInDim ⟨2, ![a, 1]⟩ dims h v (ix2 p u) = v (ix1 p) := by
  subst hd; exact broadcastInDim_a_a1_apply v h p u

/-- The same with the axis map a variable equal to `![0, 1]`. -/
theorem broadcastInDim_a1_ab_apply' {a b : ℕ} (dims : Fin (⟨2, ![a, 1]⟩ : Shape).rank → Fin (⟨2, ![a, b]⟩ : Shape).rank)
    (v : (⟨2, ![a, 1]⟩ : Shape).Idx → α) (h : (⟨2, ![a, 1]⟩ : Shape).BroadcastsInDim ⟨2, ![a, b]⟩ dims) (hd : dims = ![0, 1])
    (p : Fin a) (c : Fin b) : broadcastInDim ⟨2, ![a, b]⟩ dims h v (ix2 p c) = v (ix2 p (0 : Fin 1)) := by
  subst hd; exact broadcastInDim_a1_ab_apply v h p c

end Cert.Lib.HostColumn

end
-- ==== Proof.LibDotTransposedRhs.lean ====
/-
  The host's product against a transposed right operand at the exact instance, read at an entry.

  For an `M × K` left operand and an `N × K` right operand, both contracted over their last axis, the entry at
  `(a, b)` is the sum over `k` of `l[a,k] · r[b,k]`: on the extended reals the product is the exact sum.
-/
import Idealize.ShloMosaic.Lib.ValueIdx
import Idealize.ShloMosaic.PureOps.Ideal.Laws

noncomputable section

namespace Cert.Lib.DotTransposedRhs

open Idealize.ShloMosaic Idealize.ShloMosaic.ValueIdx

variable {M K N : ℕ} {φ₁ φ₂ : FTy}

theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The `(a, b)` entry of the host's `M × K` by `N × K` product is `∑ k, l[a,k] · r[b,k]`. -/
theorem dotGeneral_transposedRhs_apply (prec : Option ContractPrecision) (sched : HostSchedule)
    (l : FVec Ideal ⟨2, ![M, K]⟩ φ₁) (r : FVec Ideal ⟨2, ![N, K]⟩ φ₂) (a : Fin M) (b : Fin N) :
    FloatOps.dotGeneral (DotDims.transposedRhs M K N) prec sched l r (ix2 a b)
      = ∑ k : Fin K, l (ix2 a k) * r (ix2 b k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun x => Fin.ext (by
      match x with
      | ⟨0, _⟩ => exact lhs_row _ _
      | ⟨1, _⟩ => exact (lhs_col _ _).trans hk)
  have er : (DotDims.transposedRhs M K N).rhsIdx (ix2 a b) ((contrEquiv1 (DotDims.transposedRhs M K N) K rfl rfl).symm k) = ix2 b k :=
    funext fun x => Fin.ext (by
      match x with
      | ⟨0, _⟩ => exact rhs_row _ _
      | ⟨1, _⟩ => exact (rhs_col _ _).trans hk)
  rw [el, er]

end Cert.Lib.DotTransposedRhs

end
-- ==== Proof.RefRows.lean ====
/-
  What the reference computes, row by row.

  The reference runs the same routing on the whole 16384 × 512 array of logits. Its operations fall into five shapes,
  written here once each over plain arrays exactly as the program spells them: the exponentials of a score array after each
  row's largest entry is subtracted; the logits weighted by those exponentials over their row sums; the column of a
  weighted array's squared row norms; the scores updated by the row sums of the logits times the squashed weighted
  logits; and the final normalization. Each is entrywise or a reduction along a row followed by a broadcast back over the
  row, so row `r` of the result depends only on row `r` of the operands: read at `(r, k)`, each is the matching routing
  step applied to row `r`. The run's named intermediates are these five shapes composed, and so is its result.
-/
import proofs.«163867_j78477642432579_1_alg».proof.Proof.Gen.ReferenceIdeal.Run
import proofs.«163867_j78477642432579_1_alg».proof.Proof.Spec
import proofs.«163867_j78477642432579_1_alg».proof.Proof.LibRowReduce
import proofs.«163867_j78477642432579_1_alg».proof.Proof.LibHostColumn
import proofs.«163867_j78477642432579_1_alg».proof.Proof.LibDotTransposedRhs
import Idealize.ShloMosaic.Lib.IdealHost
import Idealize.ShloMosaic.PureOps.Ideal.Laws

noncomputable section

namespace Cert.ReferenceIdeal.Rows

open Idealize.ShloMosaic Idealize.ShloMosaic.ValueIdx Idealize.ShloMosaic.StableHlo
open Cert.ReferenceIdeal Cert.ReferenceIdeal.Gen Cert.ReferenceIdeal.Value Cert.Routing Cert.Lib.RowReduce Cert.Lib.HostColumn

variable [Facts]

theorem hexp_apply {s : Shape} {φ : FTy} (a : FVec Ideal s φ) (i : s.Idx) : Host.exp a i = Ideal.exp (a i) := rfl
theorem hsqrt_apply {s : Shape} {φ : FTy} (a : FVec Ideal s φ) (i : s.Idx) : Host.sqrt a i = Ideal.sqrt (a i) := rfl

/-! ## The five shapes -/

/-- The all-zero scores. -/
def hostZero : FVec Ideal S16384x512 .f32 :=
  broadcastInDim S16384x512 ![] bcast_S_S16384x512 (constant (F := Ideal) S_ .f32 0x00000000#32)

/-- The logits: `x` against `W`, both contracted over their last axis. -/
def hostLogits (X : FVec Ideal S16384x4096 .f32) (W : FVec Ideal S512x4096 .f32) : FVec Ideal S16384x512 .f32 :=
  Host.dotGeneral dot_S16384x4096_S512x4096_S16384x512_1_1_0_0_n_n none X W

/-- The exponentials of a score array after each row's largest entry is subtracted. -/
def hostExp (B : FVec Ideal S16384x512 .f32) : FVec Ideal S16384x512 .f32 :=
  Host.exp (subf B (broadcastInDim S16384x512 ![0, 1] bcast_S16384x1_S16384x512_0_1 (broadcastInDim S16384x1 ![0] bcast_S16384_S16384x1_0 (maximumf (broadcastInDim S16384 ![] bcast_S_S16384 (constant (F := Ideal) S_ .f32 0xFF800000#32)) (Host.reduce FloatOps.maximumf B (constant (F := Ideal) S_ .f32 0xFF800000#32) reducesTo_S16384x512_S16384_d1 h_S_)))))

/-- The logits weighted by the exponentials over their row sums. -/
def hostScale (Ua E : FVec Ideal S16384x512 .f32) : FVec Ideal S16384x512 .f32 :=
  mulf Ua (Host.divf E (broadcastInDim S16384x512 ![0, 1] bcast_S16384x1_S16384x512_0_1 (broadcastInDim S16384x1 ![0] bcast_S16384_S16384x1_0 (Host.reduceAdd (F := Ideal) E (constant (F := Ideal) S_ .f32 0x00000000#32) reducesTo_S16384x512_S16384_d1 h_S_))))

/-- The column of a weighted array's squared row norms. -/
def hostSqNorm (S : FVec Ideal S16384x512 .f32) : FVec Ideal S16384x1 .f32 :=
  broadcastInDim S16384x1 ![0] bcast_S16384_S16384x1_0 (Host.reduceAdd (F := Ideal) (mulf S S) (constant (F := Ideal) S_ .f32 0x00000000#32) reducesTo_S16384x512_S16384_d1 h_S_)

/-- The scores updated by the row sums of the logits times the squashed weighted logits. -/
def hostUpdate (Ua B S : FVec Ideal S16384x512 .f32) (N : FVec Ideal S16384x1 .f32) : FVec Ideal S16384x512 .f32 :=
  addf B (broadcastInDim S16384x512 ![0, 1] bcast_S16384x1_S16384x512_0_1 (broadcastInDim S16384x1 ![0] bcast_S16384_S16384x1_0 (Host.reduceAdd (F := Ideal) (mulf Ua (Host.divf (mulf (broadcastInDim S16384x512 ![0, 1] bcast_S16384x1_S16384x512_0_1 (Host.divf N (addf (broadcastInDim S16384x1 ![] bcast_S_S16384x1 (constant (F := Ideal) S_ .f32 0x3F800000#32)) N))) S) (broadcastInDim S16384x512 ![0, 1] bcast_S16384x1_S16384x512_0_1 (addf (Host.sqrt N) (broadcastInDim S16384x1 ![] bcast_S_S16384x1 (constant (F := Ideal) S_ .f32 0x3089705F#32)))))) (constant (F := Ideal) S_ .f32 0x00000000#32) reducesTo_S16384x512_S16384_d1 h_S_)))

/-- Each entry over its row's sum. -/
def hostNorm (E : FVec Ideal S16384x512 .f32) : FVec Ideal S16384x512 .f32 :=
  Host.divf E (broadcastInDim S16384x512 ![0, 1] bcast_S16384x1_S16384x512_0_1 (broadcastInDim S16384x1 ![0] bcast_S16384_S16384x1_0 (Host.reduceAdd (F := Ideal) E (constant (F := Ideal) S_ .f32 0x00000000#32) reducesTo_S16384x512_S16384_d1 h_S_)))

/-! ## Each shape read at a row -/

theorem hostZero_apply (r : Fin 16384) (k : Fin 512) : hostZero (ix2 r k) = zeroRow k := by
  unfold hostZero
  simp only [broadcastInDim_scalar_apply, constant_apply]
  rfl

theorem hostLogits_apply (X : FVec Ideal S16384x4096 .f32) (W : FVec Ideal S512x4096 .f32) (r : Fin 16384) (k : Fin 512) :
    hostLogits X W (ix2 r k) = logits X W r k :=
  Cert.Lib.DotTransposedRhs.dotGeneral_transposedRhs_apply (M := 16384) (K := 4096) (N := 512) none .single X W r k

theorem hostExp_apply (B : FVec Ideal S16384x512 .f32) (r : Fin 16384) (k : Fin 512) :
    hostExp B (ix2 r k) = expRow (fun j => B (ix2 r j)) k := by
  unfold hostExp
  simp only [hexp_apply, subf_apply, broadcastInDim_a1_ab_apply', broadcastInDim_a_a1_apply']
  rw [maximumf_apply, hostRowMax_apply, broadcastInDim_scalar_apply, constant_apply]
  rfl

theorem hostScale_apply (Ua E : FVec Ideal S16384x512 .f32) (r : Fin 16384) (k : Fin 512) :
    hostScale Ua E (ix2 r k) = scaleRow (fun j => Ua (ix2 r j)) (normRow (fun j => E (ix2 r j))) k := by
  unfold hostScale
  repeat (first
    | rw [hostRowSum_apply]
    | rw [hostRowMax_apply]
    | simp only [hostDivf_apply, mulf_apply, hexp_apply, hsqrt_apply, subf_apply, addf_apply, maximumf_apply,
        broadcastInDim_a1_ab_apply', broadcastInDim_a_a1_apply', broadcastInDim_scalar_apply, constant_apply,
        Ideal.ofBits_zero_f32, zero_add])
  rfl

theorem hostSqNorm_apply (S : FVec Ideal S16384x512 .f32) (r : Fin 16384) (u : Fin 1) :
    hostSqNorm S (ix2 r u) = sqNorm (fun j => S (ix2 r j)) := by
  unfold hostSqNorm
  repeat (first
    | rw [hostRowSum_apply]
    | rw [hostRowMax_apply]
    | simp only [hostDivf_apply, mulf_apply, hexp_apply, hsqrt_apply, subf_apply, addf_apply, maximumf_apply,
        broadcastInDim_a1_ab_apply', broadcastInDim_a_a1_apply', broadcastInDim_scalar_apply, constant_apply,
        Ideal.ofBits_zero_f32, zero_add])
  rfl

theorem hostUpdate_apply (Ua B S : FVec Ideal S16384x512 .f32) (r : Fin 16384) (k : Fin 512) :
    hostUpdate Ua B S (hostSqNorm S) (ix2 r k)
      = update (fun j => Ua (ix2 r j)) (fun j => B (ix2 r j)) (fun j => S (ix2 r j)) k := by
  unfold hostUpdate
  repeat (first
    | rw [hostRowSum_apply]
    | rw [hostRowMax_apply]
    | simp only [hostDivf_apply, mulf_apply, hexp_apply, hsqrt_apply, subf_apply, addf_apply, maximumf_apply,
        broadcastInDim_a1_ab_apply', broadcastInDim_a_a1_apply', broadcastInDim_scalar_apply, constant_apply,
        Ideal.ofBits_zero_f32, zero_add, hostSqNorm_apply])
  rfl

theorem hostNorm_apply (E : FVec Ideal S16384x512 .f32) (r : Fin 16384) (k : Fin 512) :
    hostNorm E (ix2 r k) = normRow (fun j => E (ix2 r j)) k := by
  unfold hostNorm
  repeat (first
    | rw [hostRowSum_apply]
    | rw [hostRowMax_apply]
    | simp only [hostDivf_apply, mulf_apply, hexp_apply, hsqrt_apply, subf_apply, addf_apply, maximumf_apply,
        broadcastInDim_a1_ab_apply', broadcastInDim_a_a1_apply', broadcastInDim_scalar_apply, constant_apply,
        Ideal.ofBits_zero_f32, zero_add])
  rfl

/-! ## The shapes composed -/

/-- One routing iteration on whole arrays. -/
def hostStep (Ua B : FVec Ideal S16384x512 .f32) : FVec Ideal S16384x512 .f32 :=
  hostUpdate Ua B (hostScale Ua (hostExp B)) (hostSqNorm (hostScale Ua (hostExp B)))

theorem hostStep_apply (Ua B : FVec Ideal S16384x512 .f32) (r : Fin 16384) (k : Fin 512) :
    hostStep Ua B (ix2 r k) = step (fun j => Ua (ix2 r j)) (fun j => B (ix2 r j)) k := by
  unfold hostStep
  rw [hostUpdate_apply]
  simp only [hostScale_apply, hostExp_apply]
  rfl

/-- Three iterations from the zero scores and the final softmax, on whole arrays. -/
def hostRouted (X : FVec Ideal S16384x4096 .f32) (W : FVec Ideal S512x4096 .f32) : FVec Ideal S16384x512 .f32 :=
  hostNorm (hostExp (hostStep (hostLogits X W) (hostStep (hostLogits X W) (hostStep (hostLogits X W) hostZero))))

/-- The reference's whole computation is the routing of each row's logits. -/
theorem hostRouted_eq (X : FVec Ideal S16384x4096 .f32) (W : FVec Ideal S512x4096 .f32) :
    hostRouted X W = routed (n := 16384) X W := by
  funext i
  obtain ⟨r, k, rfl⟩ : ∃ (r : Fin 16384) (k : Fin 512), i = ix2 r k := ⟨i 0, i 1, eq_ix2 i⟩
  unfold hostRouted
  rw [hostNorm_apply]
  simp only [hostExp_apply, hostStep_apply, hostLogits_apply, hostZero_apply]
  rfl

/-- The run's result term is those shapes composed, of the two arguments. -/
theorem run_term_eq (V0 : Valuation τ sig (Elt Ideal)) :
    Host.divf (res_main_v98 (F := Ideal) V0) (broadcastInDim S16384x512 ![0, 1] bcast_S16384x1_S16384x512_0_1 (broadcastInDim S16384x1 ![0] bcast_S16384_S16384x1_0 (Host.reduceAdd (res_main_v98 (F := Ideal) V0) (constant S_ .f32 0x00000000#32) reducesTo_S16384x512_S16384_d1 h_S_)))
      = hostRouted (V0 (Proc.devRef .tc main_arg0)) (V0 (Proc.devRef .tc main_arg1)) := rfl

end Cert.ReferenceIdeal.Rows

end
-- ==== Proof.lean ====
/-
  The kernel against its reference: capsule-style routing of x · Wᵀ, as extended reals.

  Both programs form the 16384 × 512 logits `u = x · Wᵀ` and run three routing iterations on every row: from zero scores
  `b`, `c = softmax b`, `s = u · c`, `n = Σ s²`, `v = (n / (1 + n)) · s / (√n + ε)`, `b ← b + Σ u · v`; the result is
  `softmax b`. The kernel does this 256 rows at a time over a grid of 64 points, narrowing both operands to bf16 before the
  product (the identity on the extended reals) and transposing `W`; the reference contracts `W` on its last axis and works
  on the whole array. Every step after the product is entrywise or a reduction along a row, so each row of the result is
  one function, `route`, of that row's logits (Spec.lean). KernelRows.lean reads the kernel's body at an entry as `route`
  of the block row's logits, and KernelValue.lean carries that from the 64 blocks to the whole array; RefRows.lean reads
  the reference's run the same way. No law of arithmetic beyond reordering the product's sum is used, so finiteness of
  the inputs is not needed. The ideal pass rewrote nothing, so `preserves` has nothing to state.
-/
import proofs.«163867_j78477642432579_1_alg».proof.Defs
import proofs.«163867_j78477642432579_1_alg».proof.Proof.Gen.Kernel
import proofs.«163867_j78477642432579_1_alg».proof.Proof.Gen.Kernel.Skeleton
import proofs.«163867_j78477642432579_1_alg».proof.Proof.Gen.Kernel.Launch
import proofs.«163867_j78477642432579_1_alg».proof.Proof.Gen.Kernel.Points
import proofs.«163867_j78477642432579_1_alg».proof.Proof.Gen.Kernel.Frame
import proofs.«163867_j78477642432579_1_alg».proof.Proof.Gen.KernelIdeal
import proofs.«163867_j78477642432579_1_alg».proof.Proof.Gen.KernelIdeal.Skeleton
import proofs.«163867_j78477642432579_1_alg».proof.Proof.Gen.KernelIdeal.Launch
import proofs.«163867_j78477642432579_1_alg».proof.Proof.Gen.KernelIdeal.Points
import proofs.«163867_j78477642432579_1_alg».proof.Proof.Gen.KernelIdeal.Frame
import proofs.«163867_j78477642432579_1_alg».proof.Proof.Gen.ReferenceIdeal
import proofs.«163867_j78477642432579_1_alg».proof.Proof.Gen.Pre_finite_inputs
import proofs.«163867_j78477642432579_1_alg».proof.Proof.Gen.ReferenceIdeal.Run
import proofs.«163867_j78477642432579_1_alg».proof.Proof.KernelValue
import proofs.«163867_j78477642432579_1_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on `x` and `W`, both programs end with the result array at the routing of each row's logits. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Rows.run_term_eq _).trans (Cert.ReferenceIdeal.Rows.hostRouted_eq _ _)).trans ?_
  exact congrArg₂ (fun a b => Cert.Routing.routed (n := 16384) a b) (hagree c).1 (hagree c).2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
